-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x4096 : Shape := ⟨3, ![4, 128, 4096]⟩
abbrev S11008x4096 : Shape := ⟨2, ![11008, 4096]⟩
abbrev S11008x1 : Shape := ⟨2, ![11008, 1]⟩
abbrev S11008 : Shape := ⟨1, ![11008]⟩
abbrev S_ : Shape := ⟨0, ![]⟩

class Facts : Prop where
  bcast_S_S4x128x4096 : S_.BroadcastsInDim S4x128x4096 (![] : Fin 0 → Fin S4x128x4096.rank)
  reducesTo_S4x128x4096_S_d0_1_2 : S4x128x4096.ReducesTo [0, 1, 2] S_
  h_S_ : 0 < S_.numel
  bcast_S_S11008x1 : S_.BroadcastsInDim S11008x1 (![] : Fin 0 → Fin S11008x1.rank)
  reducesTo_S11008x1_S_d0_1 : S11008x1.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x128x4096 .f32) (main_arg1 : IVec S11008x4096 32) (main_arg2 : FVec F S11008x1 .f32) (main_arg3 : FVec F S11008 .f32) : IVec S_ 1 :=
  let main_v0 : FVec F S4x128x4096 .f32 := Host.absf main_arg0
  let main_cst : FVec F S_ .f32 := constant S_ .f32 0x7F800000#32
  let main_v1 : FVec F S4x128x4096 .f32 := broadcastInDim S4x128x4096 ![] bcast_S_S4x128x4096 main_cst
  let main_v2 : IVec S4x128x4096 1 := cmpf .olt main_v0 main_v1
  let main_c : IVec S_ 1 := constantI S_ 1 1#1
  let main_v3 : IVec S_ 1 := (fun x v => Host.reduce IntOp.andi x v reducesTo_S4x128x4096_S_d0_1_2 h_S_) main_v2 main_c
  let main_v4 : FVec F S11008x1 .f32 := Host.absf main_arg2
  let main_cst_0 : FVec F S_ .f32 := constant S_ .f32 0x7F800000#32
  let main_v5 : FVec F S11008x1 .f32 := broadcastInDim S11008x1 ![] bcast_S_S11008x1 main_cst_0
  let main_v6 : IVec S11008x1 1 := cmpf .olt main_v4 main_v5
  let main_c_1 : IVec S_ 1 := constantI S_ 1 1#1
  let main_v7 : IVec S_ 1 := (fun x v => Host.reduce IntOp.andi x v reducesTo_S11008x1_S_d0_1 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4x128x4096 : Shape := ⟨3, ![4, 128, 4096]⟩
abbrev S11008x4096 : Shape := ⟨2, ![11008, 4096]⟩
abbrev S11008x1 : Shape := ⟨2, ![11008, 1]⟩
abbrev S11008 : Shape := ⟨1, ![11008]⟩
abbrev S512x4096 : Shape := ⟨2, ![512, 4096]⟩
abbrev S1x11008 : Shape := ⟨2, ![1, 11008]⟩
abbrev S512x11008 : Shape := ⟨2, ![512, 11008]⟩
abbrev S256x4096 : Shape := ⟨2, ![256, 4096]⟩
abbrev S1x256 : Shape := ⟨2, ![1, 256]⟩
abbrev S512x256 : Shape := ⟨2, ![512, 256]⟩
abbrev S4x128x11008 : Shape := ⟨3, ![4, 128, 11008]⟩

abbrev nBuf : Space → Nat
  | .hbm => 10
  | .vmem => 9
  | .smem => 0
  | _ => 0

abbrev bufTy : (tb : Table) → Fin (tcTables nBuf tb) → BufTy
  | .hbm, ⟨0, _⟩ => ⟨S4x128x4096, .f32⟩
  | .hbm, ⟨1, _⟩ => ⟨S11008x4096, .i32⟩
  | .hbm, ⟨2, _⟩ => ⟨S11008x1, .f32⟩
  | .hbm, ⟨3, _⟩ => ⟨S11008, .f32⟩
  | .hbm, ⟨4, _⟩ => ⟨S512x4096, .f32⟩
  | .hbm, ⟨5, _⟩ => ⟨S512x4096, .bf16⟩
  | .hbm, ⟨6, _⟩ => ⟨S1x11008, .f32⟩
  | .hbm, ⟨7, _⟩ => ⟨S1x11008, .f32⟩
  | .hbm, ⟨8, _⟩ => ⟨S512x11008, .f32⟩
  | .hbm, ⟨9, _⟩ => ⟨S4x128x11008, .f32⟩
  | .local _ .vmem, ⟨0, _⟩ => ⟨S512x4096, .bf16⟩
  | .local _ .vmem, ⟨1, _⟩ => ⟨S256x4096, .i32⟩
  | .local _ .vmem, ⟨2, _⟩ => ⟨S256x4096, .i32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S512x256, .f32⟩
  | .local _ .vmem, ⟨8, _⟩ => ⟨S512x256, .f32⟩
  | _, _ => ⟨S4x128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x128x4096_S512x4096 : S4x128x4096.ShapeCasts S512x4096
  bitsLt_bf16_f32 : FTy.bits .bf16 < FTy.bits .f32
  shapeCasts_S11008x1_S1x11008 : S11008x1.ShapeCasts S1x11008
  shapeCasts_S11008_S1x11008 : S11008.ShapeCasts S1x11008
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  shapeCasts_S512x11008_S4x128x11008 : S512x11008.ShapeCasts S4x128x11008
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S512x4096.size a
  hwx0_0 : ∀ i : grid0.Coords, EltTy.bits .bf16 = 32 ∨ (Rect.block (s := S512x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x11008.size a
  hwx0_2 : ∀ i : grid0.Coords, EltTy.bits .f32 = 32 ∨ (Rect.block (s := S1x11008) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x11008.size a
  hwx0_3 : ∀ i : grid0.Coords, EltTy.bits .f32 = 32 ∨ (Rect.block (s := S1x11008) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x11008.size a
  hwx0_4 : ∀ i : grid0.Coords, EltTy.bits .f32 = 32 ∨ (Rect.block (s := S512x11008) S512x256.size (cc0_transform_4 i) (hinb0_4 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v1) S512x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x128x4096 : Shape := ⟨3, ![4, 128, 4096]⟩
abbrev S11008x4096 : Shape := ⟨2, ![11008, 4096]⟩
abbrev S11008x1 : Shape := ⟨2, ![11008, 1]⟩
abbrev S11008 : Shape := ⟨1, ![11008]⟩
abbrev S_ : Shape := ⟨0, ![]⟩
abbrev S4x128x11008 : Shape := ⟨3, ![4, 128, 11008]⟩
abbrev S1x1x11008 : Shape := ⟨3, ![1, 1, 11008]⟩

abbrev nBuf : Space → Nat
  | .hbm => 14
  | .vmem => 0
  | .smem => 0
  | _ => 0

abbrev bufTy : (tb : Table) → Fin (tcTables nBuf tb) → BufTy
  | .hbm, ⟨0, _⟩ => ⟨S4x128x4096, .f32⟩
  | .hbm, ⟨1, _⟩ => ⟨S11008x4096, .i32⟩
  | .hbm, ⟨2, _⟩ => ⟨S11008x1, .f32⟩
  | .hbm, ⟨3, _⟩ => ⟨S11008, .f32⟩
  | .hbm, ⟨4, _⟩ => ⟨S11008x4096, .f32⟩
  | .hbm, ⟨5, _⟩ => ⟨S_, .f32⟩
  | .hbm, ⟨6, _⟩ => ⟨S11008x4096, .f32⟩
  | .hbm, ⟨7, _⟩ => ⟨S11008x4096, .f32⟩
  | .hbm, ⟨8, _⟩ => ⟨S11008x4096, .f32⟩
  | .hbm, ⟨9, _⟩ => ⟨S11008x4096, .f32⟩
  | .hbm, ⟨10, _⟩ => ⟨S4x128x11008, .f32⟩
  | .hbm, ⟨11, _⟩ => ⟨S1x1x11008, .f32⟩
  | .hbm, ⟨12, _⟩ => ⟨S4x128x11008, .f32⟩
  | .hbm, ⟨13, _⟩ => ⟨S4x128x11008, .f32⟩
  | _, _ => ⟨S4x128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S_S11008x4096 : S_.BroadcastsInDim S11008x4096 (![] : Fin 0 → Fin S11008x4096.rank)
  bcast_S11008x1_S11008x4096_0_1 : S11008x1.BroadcastsInDim S11008x4096 (![0, 1] : Fin 2 → Fin S11008x4096.rank)
  bcast_S11008_S1x1x11008_2 : S11008.BroadcastsInDim S1x1x11008 (![2] : Fin 1 → Fin S1x1x11008.rank)
  bcast_S1x1x11008_S4x128x11008_0_1_2 : S1x1x11008.BroadcastsInDim S4x128x11008 (![0, 1, 2] : Fin 3 → Fin S4x128x11008.rank)
  dot_S4x128x4096_S11008x4096_S4x128x11008_2_1_01_0_n_n_wf : DotDims.WF S4x128x4096 S11008x4096 S4x128x11008 [2] [1] [0, 1] [0] [] []

variable [Facts₀]

def dot_S4x128x4096_S11008x4096_S4x128x11008_2_1_01_0_n_n : DotDims S4x128x4096 S11008x4096 S4x128x11008 where
  lhsContracting := [2]
  rhsContracting := [1]
  lhsNonContracting := [0, 1]
  rhsNonContracting := [0]
  lhsBatch := []
  rhsBatch := []
  wf := dot_S4x128x4096_S11008x4096_S4x128x11008_2_1_01_0_n_n_wf

class Facts : Prop extends Facts₀ where

variable [Facts]
-- ==== Proof.LibRealSums.lean ====
/-
  Finite sums of real numbers read in the extended reals.

  The extended reals are a commutative monoid under addition, so a finite sum may be regrouped and reordered at will, the
  infinities included; what fails at the infinities is distributivity, and with it the associativity of a product of three
  matrices. Here: the cast of a finite real sum is the sum of the casts; for REAL-valued factors the two ways of
  associating a triple product agree entry by entry; and a sum over `Fin (m + d)` whose last `d` terms vanish is the sum
  of its first `m` terms (a contraction padded with zeros, or cut by a mask, is the unpadded contraction).
-/
import Mathlib.Data.EReal.Operations
import Mathlib.Algebra.BigOperators.Fin
import Mathlib.Algebra.BigOperators.Ring.Finset

namespace Cert.RealSums

open Finset

/-- The cast of a finite sum of reals is the sum of the casts. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The real identity: `∑ₖ (∑ⱼ aⱼ bⱼₖ) cₖ = ∑ⱼ aⱼ (∑ₖ bⱼₖ cₖ)`, one row `a` of the left factor against one column `c`
    of the right one. -/
theorem assoc_row_col {J K : Type*} [Fintype J] [Fintype K] (a : J → ℝ) (b : J → K → ℝ) (c : K → ℝ) :
    (∑ k, (∑ j, a j * b j k) * c k) = ∑ j, a j * ∑ k, b j k * c k := by
  simp only [Finset.sum_mul, Finset.mul_sum]
  rw [Finset.sum_comm]
  exact Finset.sum_congr rfl fun j _ => Finset.sum_congr rfl fun k _ => by ring

/-- The same read in the extended reals, each factor the cast of a real: `(A·B)·C` and `A·(B·C)` have equal entries
    when `A`'s row, `B` and `C`'s column are finite. -/
theorem assoc_row_col_coe {J K : Type*} [Fintype J] [Fintype K] (a : J → ℝ) (b : J → K → ℝ) (c : K → ℝ) :
    (∑ k, (∑ j, (a j : EReal) * (b j k : EReal)) * (c k : EReal))
      = ∑ j, (a j : EReal) * ∑ k, (b j k : EReal) * (c k : EReal) := by
  simp only [← EReal.coe_mul, ← coe_sum]
  rw [assoc_row_col]

/-- A sum over `Fin (m + d)` whose last `d` terms vanish is the sum of its first `m` terms. -/
theorem sum_castAdd_of_tail_zero {M : Type*} [AddCommMonoid M] {m d : ℕ} (f : Fin (m + d) → M)
    (hz : ∀ i : Fin d, f (Fin.natAdd m i) = 0) : ∑ i, f i = ∑ i : Fin m, f (Fin.castAdd d i) := by
  rw [Fin.sum_univ_add, Finset.sum_eq_zero (fun i _ => hz i), add_zero]

/-- A sum over `Fin (m + d)` is the sum of its first `m` terms plus the sum of its last `d` (a contraction done as a head
    product and a tail product). -/
theorem sum_head_add_tail {M : Type*} [AddCommMonoid M] {m d : ℕ} (f : Fin (m + d) → M) :
    ∑ i, f i = (∑ i : Fin m, f (Fin.castAdd d i)) + ∑ i : Fin d, f (Fin.natAdd m i) :=
  Fin.sum_univ_add f

end Cert.RealSums
-- ==== Proof.Spec.lean ====
/-
  A quantized linear layer, as one function of its four argument arrays.

  The weight of output channel o at input feature k is stored as an integer code q(o,k); the dequantized weight is
  scale(o) · (q(o,k) − z) with z the zero point. The layer's output at (p, r, o) — batch member p, sequence position r,
  output channel o — is  ∑ₖ x(p,r,k) · scale(o) · (q(o,k) − z)  +  bias(o).

  Two arrangements of that number are written here. `linScaledAfter` contracts x against the unscaled codes
  (q − z) and multiplies the finished sum by scale(o); `linScaledBefore` scales every weight first and then contracts.
  They differ by moving the factor scale(o) across the sum over k, which is distributivity: it holds between finite
  values and can fail at the infinities of the extended reals (an infinite product inside the sum need not survive
  the regrouping). So the law below asks that x, scale and z be finite; the codes are integers and always are, and the
  bias, added last on both sides, may be anything.
-/
import Idealize.ShloMosaic.PureOps.Ideal
import Idealize.ShloMosaic.Lib.ValueIdx
import proofs.«166125_j28484223107806_2_alg».proof.Proof.LibRealSums

noncomputable section

namespace Cert.QuantLinear

open Idealize.ShloMosaic Idealize.ShloMosaic.ValueIdx

/-- A stored weight code read as a signed integer, less the zero point `z`. -/
def code (z : EReal) (w : BitVec 32) : EReal := ((w.toInt : ℝ) : EReal) - z

/-- Entry (p, r, o) with the scale applied to the finished contraction. -/
def entryScaledAfter (z : EReal) (x : (⟨3, ![4, 128, 4096]⟩ : Shape).Idx → EReal) (q : (⟨2, ![11008, 4096]⟩ : Shape).Idx → BitVec 32)
    (s : (⟨2, ![11008, 1]⟩ : Shape).Idx → EReal) (b : (⟨1, ![11008]⟩ : Shape).Idx → EReal)
    (p : Fin 4) (r : Fin 128) (o : Fin 11008) : EReal :=
  (∑ k : Fin 4096, x (ix3 p r k) * code z (q (ix2 o k))) * s (ix2 o (0 : Fin 1)) + b (ix1 o)

/-- Entry (p, r, o) with every weight scaled before the contraction. -/
def entryScaledBefore (z : EReal) (x : (⟨3, ![4, 128, 4096]⟩ : Shape).Idx → EReal) (q : (⟨2, ![11008, 4096]⟩ : Shape).Idx → BitVec 32)
    (s : (⟨2, ![11008, 1]⟩ : Shape).Idx → EReal) (b : (⟨1, ![11008]⟩ : Shape).Idx → EReal)
    (p : Fin 4) (r : Fin 128) (o : Fin 11008) : EReal :=
  (∑ k : Fin 4096, x (ix3 p r k) * (s (ix2 o (0 : Fin 1)) * code z (q (ix2 o k)))) + b (ix1 o)

/-- The whole output array, scale applied after the contraction. -/
def linScaledAfter (z : EReal) (x : (⟨3, ![4, 128, 4096]⟩ : Shape).Idx → EReal) (q : (⟨2, ![11008, 4096]⟩ : Shape).Idx → BitVec 32)
    (s : (⟨2, ![11008, 1]⟩ : Shape).Idx → EReal) (b : (⟨1, ![11008]⟩ : Shape).Idx → EReal) :
    (⟨3, ![4, 128, 11008]⟩ : Shape).Idx → EReal :=
  fun i => entryScaledAfter z x q s b (i 0) (i 1) (i 2)

/-- The whole output array, scale applied before the contraction. -/
def linScaledBefore (z : EReal) (x : (⟨3, ![4, 128, 4096]⟩ : Shape).Idx → EReal) (q : (⟨2, ![11008, 4096]⟩ : Shape).Idx → BitVec 32)
    (s : (⟨2, ![11008, 1]⟩ : Shape).Idx → EReal) (b : (⟨1, ![11008]⟩ : Shape).Idx → EReal) :
    (⟨3, ![4, 128, 11008]⟩ : Shape).Idx → EReal :=
  fun i => entryScaledBefore z x q s b (i 0) (i 1) (i 2)

/-- Between real numbers a common factor moves across a finite sum. -/
theorem real_scale_across {K : Type*} [Fintype K] (a w : K → ℝ) (c : ℝ) :
    (∑ k, a k * w k) * c = ∑ k, a k * (c * w k) := by
  rw [Finset.sum_mul]
  exact Finset.sum_congr rfl fun k _ => by ring

/-- The two arrangements agree entry by entry when x, scale and the zero point are finite. -/
theorem entry_after_eq_before (z : EReal) (x : (⟨3, ![4, 128, 4096]⟩ : Shape).Idx → EReal) (q : (⟨2, ![11008, 4096]⟩ : Shape).Idx → BitVec 32)
    (s : (⟨2, ![11008, 1]⟩ : Shape).Idx → EReal) (b : (⟨1, ![11008]⟩ : Shape).Idx → EReal)
    (hz : ∃ r : ℝ, z = (r : EReal)) (hx : ∀ j, ∃ r : ℝ, x j = (r : EReal)) (hs : ∀ j, ∃ r : ℝ, s j = (r : EReal))
    (p : Fin 4) (r : Fin 128) (o : Fin 11008) :
    entryScaledAfter z x q s b p r o = entryScaledBefore z x q s b p r o := by
  obtain ⟨zr, rfl⟩ := hz
  choose xr hxr using hx
  choose sr hsr using hs
  unfold entryScaledAfter entryScaledBefore code
  refine congrArg (· + b (ix1 o)) ?_
  simp only [hxr, hsr, ← EReal.coe_sub, ← EReal.coe_mul, ← Cert.RealSums.coe_sum]
  exact congrArg _ (real_scale_across _ _ _)

/-- The same for the whole arrays. -/
theorem linScaledAfter_eq_linScaledBefore (z : EReal) (x : (⟨3, ![4, 128, 4096]⟩ : Shape).Idx → EReal) (q : (⟨2, ![11008, 4096]⟩ : Shape).Idx → BitVec 32)
    (s : (⟨2, ![11008, 1]⟩ : Shape).Idx → EReal) (b : (⟨1, ![11008]⟩ : Shape).Idx → EReal)
    (hz : ∃ r : ℝ, z = (r : EReal)) (hx : ∀ j, ∃ r : ℝ, x j = (r : EReal)) (hs : ∀ j, ∃ r : ℝ, s j = (r : EReal)) :
    linScaledAfter z x q s b = linScaledBefore z x q s b :=
  funext fun i => entry_after_eq_before z x q s b hz hx hs (i 0) (i 1) (i 2)

end Cert.QuantLinear

end
-- ==== Proof.ZeroPoint.lean ====
/-
  The zero point: the f32 pattern 0x43000000 (sign 0, exponent 134, fraction 0) denotes 2⁷ = 128, a finite number.
-/
import Idealize.ShloMosaic.PureOps.Ideal

noncomputable section

namespace Cert.QuantLinear

open Idealize.ShloMosaic

/-- The pattern both programs subtract from the weight codes denotes the real number 128. -/
theorem zeroPoint_eq : Ideal.ofBits .f32 0x43000000#32 = ((128 : ℝ) : EReal) := by
  simp [Ideal.ofBits, Ideal.ieee, -EReal.coe_mul]; norm_num

/-- In particular it is finite. -/
theorem zeroPoint_real : ∃ r : ℝ, Ideal.ofBits .f32 0x43000000#32 = (r : EReal) := ⟨128, zeroPoint_eq⟩

end Cert.QuantLinear

end
-- ==== Proof.Finite.lean ====
/-
  The precondition read back: when the printed predicate
  `all(|input| < +∞) ∧ all(|scale| < +∞) ∧ all(|bias| < +∞)` is the all-ones mask, every entry of
  the three float arrays, read as an extended real, is the cast of a real number.
-/
import proofs.«166125_j28484223107806_2_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

namespace Cert.QuantLinear
open Idealize.ShloMosaic

/-- The f32 pattern `0x7F800000` (sign 0, exponent all ones, fraction 0) denotes `+∞`. -/
theorem ofBits_inf : Ideal.ofBits .f32 0x7F800000#32 = (⊤ : EReal) := by
  simp [Ideal.ofBits, Ideal.ieee]

/-- An extended real whose absolute value `max x (-x)` is strictly below `+∞` is a real:
    `x = ⊤` gives `max ⊤ ⊥ = ⊤` and `x = ⊥` gives `max ⊥ ⊤ = ⊤`, neither below `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The element fact: the ordered comparison `|x| < 0x7F800000` coming out 1 says `x` is a real. -/
theorem real_of_cmp (x : Ideal .f32)
    (h : FloatOps.cmpf .olt (FloatOps.hostAbsf x) (FloatOps.ofBits (F := Ideal) .f32 0x7F800000#32) = 1#1) :
    ∃ r : ℝ, x = (r : EReal) := by
  refine real_of_abs_lt_top x ?_
  have h' : Ideal.cmp .olt (max x (-x)) (Ideal.ofBits .f32 0x7F800000#32) = 1#1 := h
  rw [ofBits_inf] at h'
  by_contra hn
  have hb : BitVec.ofBool (decide (max x (-x) < (⊤ : EReal))) = 1#1 := h'
  rw [decide_eq_false hn] at hb
  exact absurd hb (by decide)

theorem finite_of_pre
    (x0 : FVec Ideal Cert.Pre_finite_inputs.S4x128x4096 .f32) (x1 : IVec Cert.Pre_finite_inputs.S11008x4096 32)
    (x2 : FVec Ideal Cert.Pre_finite_inputs.S11008x1 .f32) (x3 : FVec Ideal Cert.Pre_finite_inputs.S11008 .f32)
    (h : Cert.Pre_finite_inputs.fn (F := Ideal) x0 x1 x2 x3 = fun _ => 1#1) :
    (∀ j, ∃ r : ℝ, x0 j = (r : EReal)) ∧ (∀ j, ∃ r : ℝ, x2 j = (r : EReal)) ∧ (∀ j, ∃ r : ℝ, x3 j = (r : EReal)) := by
  -- the rank-0 result shape has exactly one index
  haveI : Subsingleton Cert.Pre_finite_inputs.S_.Idx := ⟨fun a b => funext fun d => d.elim0⟩
  have h0 := congrFun h ValueIdx.ix0
  dsimp only [Cert.Pre_finite_inputs.fn] at h0
  obtain ⟨h01, h3⟩ := IntOp.andi_eq_one.1 h0
  obtain ⟨h1, h2⟩ := IntOp.andi_eq_one.1 h01
  refine ⟨fun j => ?_, fun j => ?_, fun j => ?_⟩
  · exact real_of_cmp (x0 j) (Host.reduce_andi_all _ _ _ _ _ h1 j)
  · exact real_of_cmp (x2 j) (Host.reduce_andi_all _ _ _ _ _ h2 j)
  · exact real_of_cmp (x3 j) (Host.reduce_andi_all _ _ _ _ _ h3 j)

end Cert.QuantLinear
-- ==== Proof.RefSide.lean ====
/-
  The reference program's result, read entry by entry.

  The reference dequantizes first — weight(o,k) = scale(o) · (q(o,k) − 128) — then contracts the input against the
  weights over k and adds the bias: entry (p, r, o) is  ∑ₖ x(p,r,k) · (scale(o) · (q(o,k) − 128)) + bias(o), the
  arrangement with every weight scaled before the contraction.
-/
import proofs.«166125_j28484223107806_2_alg».proof.Proof.Gen.ReferenceIdeal.Read
import proofs.«166125_j28484223107806_2_alg».proof.Proof.Spec

noncomputable section

namespace Cert.QuantLinear.RefSide

open Idealize.ShloMosaic Idealize.ShloMosaic.ValueIdx Cert.ReferenceIdeal Cert.ReferenceIdeal.Read

/-- The zero point both programs spell: the f32 pattern of 128. -/
abbrev zeroPoint : EReal := Ideal.ofBits .f32 0x43000000#32

/-- The reference's last stage is the layer with every weight scaled before the contraction. -/
theorem ref_eq (x0 : (⟨S4x128x4096, .f32⟩ : BufTy).Contents (Elt Ideal)) (x1 : (⟨S11008x4096, .i32⟩ : BufTy).Contents (Elt Ideal))
    (x2 : (⟨S11008x1, .f32⟩ : BufTy).Contents (Elt Ideal)) (x3 : (⟨S11008, .f32⟩ : BufTy).Contents (Elt Ideal)) :
    val_main_v8 (F := Ideal) x0 x1 x2 x3 = linScaledBefore zeroPoint x0 x1 x2 x3 := by
  funext i
  obtain ⟨p, r, o, rfl⟩ : ∃ (p : Fin 4) (r : Fin 128) (o : Fin 11008), i = ix3 p r o := ⟨i 0, i 1, i 2, eq_ix3 i⟩
  have hl : ∀ k : Fin 4096, lidx_main_v5 (ix3 p r o) k = ix3 p r k := fun k => funext fun a => Fin.ext (by
    match a with | ⟨0, _⟩ => rfl | ⟨1, _⟩ => rfl | ⟨2, _⟩ => rfl)
  have hr : ∀ k : Fin 4096, ridx_main_v5 (ix3 p r o) k = ix2 o k := fun k => funext fun a => Fin.ext (by
    match a with | ⟨0, _⟩ => rfl | ⟨1, _⟩ => rfl)
  have h3 : ∀ k : Fin 4096, idx_main_v3 (ix2 o k) = ix2 o (0 : Fin 1) := fun k => funext fun a => Fin.ext (by
    match a with | ⟨0, _⟩ => rfl | ⟨1, _⟩ => rfl)
  have h6 : idx_main_v6 (idx_main_v7 (ix3 p r o)) = ix1 o := funext fun a => Fin.ext (by
    match a with | ⟨0, _⟩ => rfl)
  rw [val_main_v8_apply, val_main_v5_apply, val_main_v7_apply, val_main_v6_apply, h6]
  simp only [hl, hr, val_main_v4_apply, val_main_v3_apply, h3, val_main_v2_apply, val_main_v0_apply, val_main_v1_apply,
    val_main_cst_apply]
  rfl

end Cert.QuantLinear.RefSide

end
-- ==== Proof.KernelBlock.lean ====
/-
  One grid point's work, read at an entry.

  At a grid point the kernel holds the whole input x as a [512, 4096] block (row 128·p + r is position r of batch
  member p), a [256, 4096] block of weight codes (256 consecutive output channels), and the [1, 256] rows of those
  channels' scales and biases. It contracts each row of x against each channel's codes less the zero point — the last
  axis of both operands is the contracted one, so no transpose is formed — then multiplies column n by that channel's
  scale and adds its bias. Entry (row, n) of the stored block is therefore
      (∑ₖ x(row, k) · (q(n, k) − 128)) · scale(n) + bias(n),
  the scale applied after the contraction. Changes of float format on the way into the product are the identity on
  extended reals, and the product into a zero accumulator is the plain sum.
-/
import proofs.«166125_j28484223107806_2_alg».proof.Proof.Gen.KernelIdeal.Skeleton
import proofs.«166125_j28484223107806_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.QuantLinear.KernelBlock

open Idealize.ShloMosaic Idealize.ShloMosaic.ValueIdx Cert.KernelIdeal Cert.KernelIdeal.Gen

/-- The contraction's record: the last axis of the [512, 4096] operand against the last axis of the [256, 4096] one. -/
abbrev D : DotDims S512x4096 S256x4096 S512x256 := dot_S512x4096_S256x4096_S512x256_1_1_0_0_n_n

theorem lhs_row (i : S512x256.Idx) (q : D.contr.Idx) : (D.lhsIdx i q 0).val = (i 0).val := by
  unfold DotDims.lhsIdx
  rw [dif_neg (show ¬(0 : Fin S512x4096.rank) ∈ D.lhsBatch by decide), dif_pos (show (0 : Fin S512x4096.rank) ∈ D.lhsNonContracting by decide)]
  rfl

theorem lhs_contr (i : S512x256.Idx) (q : D.contr.Idx) : (D.lhsIdx i q 1).val = (q ⟨0, by decide⟩).val :=
  D.lhsIdx_val_of_single rfl i q

theorem rhs_row (i : S512x256.Idx) (q : D.contr.Idx) : (D.rhsIdx i q 0).val = (i 1).val := by
  unfold DotDims.rhsIdx
  rw [dif_neg (show ¬(0 : Fin S256x4096.rank) ∈ D.rhsBatch by decide), dif_pos (show (0 : Fin S256x4096.rank) ∈ D.rhsNonContracting by decide)]
  rfl

theorem rhs_contr (i : S512x256.Idx) (q : D.contr.Idx) : (D.rhsIdx i q 1).val = (q ⟨0, by decide⟩).val :=
  D.rhsIdx_val_of_single rfl i q

/-- The product of a [512, 4096] and a [256, 4096] operand over their last axes, into the zero accumulator, at entry
    (row, n): the sum over k of row `row` of the one times row `n` of the other. -/
theorem matmul_entry (l : FVec Ideal S512x4096 .bf16) (w : FVec Ideal S256x4096 .bf16) (row : Fin 512) (n : Fin 256) :
    matmul D none l w (constant S512x256 .f32 0x00000000#32) (ix2 row n) = ∑ k : Fin 4096, l (ix2 row k) * w (ix2 n k) := by
  simp only [matmul]
  rw [Ideal.matmul_constant_zero_apply, ← Equiv.sum_comp (ValueIdx.contrEquiv1 D 4096 rfl rfl).symm]
  refine Finset.sum_congr rfl fun k _ => ?_
  have hk := ValueIdx.contrEquiv1_symm_val D 4096 rfl rfl k
  have el : D.lhsIdx (ix2 row n) ((ValueIdx.contrEquiv1 D 4096 rfl rfl).symm k) = ix2 row k := funext fun a => Fin.ext (by
    match a with
    | ⟨0, _⟩ => exact lhs_row _ _
    | ⟨1, _⟩ => exact (lhs_contr _ _).trans hk)
  have er : D.rhsIdx (ix2 row n) ((ValueIdx.contrEquiv1 D 4096 rfl rfl).symm k) = ix2 n k := funext fun a => Fin.ext (by
    match a with
    | ⟨0, _⟩ => exact rhs_row _ _
    | ⟨1, _⟩ => exact (rhs_contr _ _).trans hk)
  rw [el, er]

/-- A [1, 256] row broadcast down the 512 rows of the block: entry (row, n) is the row's entry n. -/
theorem row_bcast (v : FVec Ideal S1x256 .f32) (row : Fin 512) (n : Fin 256) :
    broadcastTo S512x256 (shapeCast S1x256 v shapeCasts_S1x256_S1x256) broadcasts_S1x256_S512x256 (ix2 row n) = v (ix2 (0 : Fin 1) n) := by
  rw [broadcastTo_1b_ab_apply, shapeCast_self]

/-- The stored block at entry (row, n): the contraction of row `row` of x against channel n's codes less the zero
    point, times the channel's scale, plus its bias. -/
theorem pay_entry (x : Vec Ideal S512x4096 .bf16) (q : Vec Ideal S256x4096 .i32) (s b : Vec Ideal S1x256 .f32)
    (row : Fin 512) (n : Fin 256) :
    k0_pay1 (F := Ideal) x q s b (ix2 row n)
      = (∑ k : Fin 4096, x (ix2 row k) * code (Ideal.ofBits .f32 0x43000000#32) (q (ix2 n k))) * s (ix2 (0 : Fin 1) n) + b (ix2 (0 : Fin 1) n) := by
  unfold k0_pay1
  show (matmul (F := Ideal) D none (shapeCast S512x4096 x shapeCasts_S512x4096_S512x4096)
          (truncf .bf16 (subf (sitofp .f32 q) (broadcast S256x4096 (Scalar.ofBits (F := Ideal) .f32 0x43000000#32))) bitsLt_bf16_f32)
          (constant (F := Ideal) S512x256 .f32 0x00000000#32) (ix2 row n))
      * (broadcastTo S512x256 (shapeCast S1x256 s shapeCasts_S1x256_S1x256) broadcasts_S1x256_S512x256 (ix2 row n))
      + (broadcastTo S512x256 (shapeCast S1x256 b shapeCasts_S1x256_S1x256) broadcasts_S1x256_S512x256 (ix2 row n)) = _
  rw [matmul_entry, row_bcast, row_bcast, shapeCast_self]
  rfl

end Cert.QuantLinear.KernelBlock

end
-- ==== Proof.LibLayout.lean ====
/-
  Layout operations read at an index, for the shapes a row-batched kernel meets: a stack [a, b, c] of b rows per
  member flattened to [a·b, c] and back (row p·b + n of the flat array is row n of member p), a per-member row [a, c]
  given a unit middle axis [a, 1, c] and broadcast over the b rows of its member, and a vector [a] stood up as a
  column [a, 1].  Row-major order: the position of (p, n, d) in [a, b, c] is (p·b + n)·c + d.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- [a, b, c] flattened to [m, c] with m = a·b: row r = p·b + n of the result is row n of member p. -/
theorem shapeCast_abc_mc_apply {a b c m : ℕ} (x : (⟨3, ![a, b, c]⟩ : Shape).Idx → α)
    (h : (⟨3, ![a, b, c]⟩ : Shape).ShapeCasts ⟨2, ![m, c]⟩) (r : Fin m) (p : Fin a) (n : Fin b) (d : Fin c)
    (hr : r.val = p.val * b + n.val) : shapeCast ⟨2, ![m, c]⟩ x h (ix2 r d) = x (ix3 p n d) :=
  shapeCast_apply x h _ _ (by
    rw [Shape.rowMajor_val_three, Shape.rowMajor_val_two]
    show (p.val * b + n.val) * c + d.val = r.val * c + d.val
    rw [hr])

/-- [m, c] with m = a·b split to [a, b, c]: row n of member p is row r = p·b + n of the operand. -/
theorem shapeCast_mc_abc_apply {a b c m : ℕ} (x : (⟨2, ![m, c]⟩ : Shape).Idx → α)
    (h : (⟨2, ![m, c]⟩ : Shape).ShapeCasts ⟨3, ![a, b, c]⟩) (r : Fin m) (p : Fin a) (n : Fin b) (d : Fin c)
    (hr : r.val = p.val * b + n.val) : shapeCast ⟨3, ![a, b, c]⟩ x h (ix3 p n d) = x (ix2 r d) :=
  shapeCast_apply x h _ _ (by
    rw [Shape.rowMajor_val_three, Shape.rowMajor_val_two]
    show r.val * c + d.val = (p.val * b + n.val) * c + d.val
    rw [hr])

/-- [a, c] given a unit middle axis [a, 1, c]: the entries are the same. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- [a, 1, c] broadcast over the middle axis to [a, b, c]: every row n of member p is the member's one row. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (d : Fin c) :
    broadcastTo ⟨3, ![a, b, c]⟩ v h (ix3 p n d) = v (ix3 p (0 : Fin 1) d) := by
  refine broadcastTo_apply v h (ix3 p n d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A per-member row [a, c] given a unit middle axis and broadcast over its member's b rows: entry (p, n, d) is the
    member's entry (p, d). -/
theorem keep_apply {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (n : Fin b) (d : Fin c) :
    broadcastTo ⟨3, ![a, b, c]⟩ (shapeCast ⟨3, ![a, 1, c]⟩ x h1) h2 (ix3 p n d) = x (ix2 p d) := by
  rw [broadcastTo_a1c_abc_apply, shapeCast_ac_a1c_apply]

/-- A vector [a] stood up as a column [a, 1]. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A bias vector [b] as a row [1, b] broadcast down a rows: entry (p, q) is the bias at q. -/
theorem bias_apply {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) := by
  rw [broadcastTo_1b_ab_apply, shapeCast_a_1a_apply]

end Cert.LibLayout

end
-- ==== Proof.LibColumnAsRow.lean ====
/-
  A column read as a row.

  An [a, 1] array and a [1, a] array list the same a numbers in the same row-major order, so reshaping the one into the
  other moves entry (p, 0) to entry (0, p).
-/
import Idealize.ShloMosaic.Lib.Pipeline.Value
import Idealize.ShloMosaic.Lib.ValueIdx

noncomputable section

namespace Cert.LibColumnAsRow

open Idealize.ShloMosaic Idealize.ShloMosaic.ValueIdx

variable {α : Type}

/-- An [a, 1] column cast to a [1, a] row reads, at (u, p), the column's entry (p, v), whatever the unit coordinates. -/
theorem shapeCast_a1_1a_apply {a : ℕ} (x : (⟨2, ![a, 1]⟩ : Shape).Idx → α)
    (h : (⟨2, ![a, 1]⟩ : Shape).ShapeCasts ⟨2, ![1, a]⟩) (u v : Fin 1) (p : Fin a) :
    shapeCast ⟨2, ![1, a]⟩ x h (ix2 u p) = x (ix2 p v) :=
  shapeCast_apply x h _ _ (by
    have hu : u.val = 0 := by omega
    have hv : v.val = 0 := by omega
    rw [Shape.rowMajor_val_two, Shape.rowMajor_val_two]
    show p.val * 1 + v.val = u.val * a + p.val
    rw [hu, hv, Nat.zero_mul, Nat.zero_add, Nat.mul_one, Nat.add_zero])

/-- A [1, a] row cast to an [a, 1] column reads, at (p, v), the row's entry (u, p). -/
theorem shapeCast_1a_a1_apply {a : ℕ} (x : (⟨2, ![1, a]⟩ : Shape).Idx → α)
    (h : (⟨2, ![1, a]⟩ : Shape).ShapeCasts ⟨2, ![a, 1]⟩) (u v : Fin 1) (p : Fin a) :
    shapeCast ⟨2, ![a, 1]⟩ x h (ix2 p v) = x (ix2 u p) :=
  shapeCast_apply x h _ _ (by
    have hu : u.val = 0 := by omega
    have hv : v.val = 0 := by omega
    rw [Shape.rowMajor_val_two, Shape.rowMajor_val_two]
    show u.val * a + p.val = p.val * 1 + v.val
    rw [hu, hv, Nat.zero_mul, Nat.zero_add, Nat.mul_one, Nat.add_zero])

end Cert.LibColumnAsRow

end
-- ==== Proof.KernelArrays.lean ====
/-
  The four arrays the kernel's call is given, as functions of the program's arguments.

  Before the call the program flattens the input [4, 128, 4096] to [512, 4096] — row 128·p + r is position r of batch
  member p — and changes its float format, which is the identity on extended reals; it reads the scale column
  [11008, 1] as a row [1, 11008], and the bias vector [11008] as a row [1, 11008]. The weight codes are passed as
  they are.
-/
import proofs.«166125_j28484223107806_2_alg».proof.Proof.Gen.KernelIdeal.Frame
import proofs.«166125_j28484223107806_2_alg».proof.Proof.LibLayout
import proofs.«166125_j28484223107806_2_alg».proof.Proof.LibColumnAsRow
import Idealize.ShloMosaic.Lib.Pipeline.Value
import Idealize.ShloMosaic.Lib.ValueIdx
import Idealize.ShloMosaic.Lib.ValueLayout
import Idealize.ShloMosaic.Lib.StableHlo.Run

noncomputable section

namespace Cert.QuantLinear.KernelArrays

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The flattened input, as the call finds it. -/
theorem x_eq (c : Dev nD) :
    (V m c main_v1 : S512x4096.Idx → EReal)
      = truncf (F := Ideal) .bf16 (shapeCast S512x4096 (m ((c : Thread nD τ).loc main_arg0)) shapeCasts_S4x128x4096_S512x4096) bitsLt_bf16_f32 := by
  show StableHlo.after hostOps0 (fun b => m (c, b)) (Proc.devRef .tc main_v1) = _
  after_results
  rfl

/-- The scale row, as the call finds it. -/
theorem s_eq (c : Dev nD) :
    (V m c main_v2 : S1x11008.Idx → EReal) = shapeCast S1x11008 (m ((c : Thread nD τ).loc main_arg2)) shapeCasts_S11008x1_S1x11008 := by
  show StableHlo.after hostOps0 (fun b => m (c, b)) (Proc.devRef .tc main_v2) = _
  after_results
  rfl

/-- The bias row, as the call finds it. -/
theorem b_eq (c : Dev nD) :
    (V m c main_v3 : S1x11008.Idx → EReal) = shapeCast S1x11008 (m ((c : Thread nD τ).loc main_arg3)) shapeCasts_S11008_S1x11008 := by
  show StableHlo.after hostOps0 (fun b => m (c, b)) (Proc.devRef .tc main_v3) = _
  after_results
  rfl

/-- Row 128·p + r of the flattened input is position r of batch member p. -/
theorem x_apply (c : Dev nD) (row : Fin 512) (p : Fin 4) (r : Fin 128) (k : Fin 4096) (h : row.val = p.val * 128 + r.val) :
    (V m c main_v1 : S512x4096.Idx → EReal) (ix2 row k) = (m ((c : Thread nD τ).loc main_arg0) : S4x128x4096.Idx → EReal) (ix3 p r k) := by
  rw [x_eq]
  exact Cert.LibLayout.shapeCast_abc_mc_apply _ _ row p r k h

/-- Entry o of the scale row is the scale of channel o. -/
theorem s_apply (c : Dev nD) (o : Fin 11008) :
    (V m c main_v2 : S1x11008.Idx → EReal) (ix2 (0 : Fin 1) o) = (m ((c : Thread nD τ).loc main_arg2) : S11008x1.Idx → EReal) (ix2 o (0 : Fin 1)) := by
  rw [s_eq]
  exact Cert.LibColumnAsRow.shapeCast_a1_1a_apply _ _ 0 0 o

/-- Entry o of the bias row is the bias of channel o. -/
theorem b_apply (c : Dev nD) (o : Fin 11008) :
    (V m c main_v3 : S1x11008.Idx → EReal) (ix2 (0 : Fin 1) o) = (m ((c : Thread nD τ).loc main_arg3) : S11008.Idx → EReal) (ix1 o) := by
  rw [b_eq]
  exact shapeCast_a_1a_apply _ _ 0 o

end Cert.QuantLinear.KernelArrays

end
-- ==== Proof.KernelFinal.lean ====
/-
  From the grid points' blocks to the whole [512, 11008] array the call returns.

  Grid point t handles output channels 256·t … 256·t + 255: its weight block is rows 256·t … of the code array, its
  scale and bias blocks are columns 256·t … of the two rows, the input block is the whole flattened input at every
  point, and the block it writes back is columns 256·t … of the result. So entry (row, o) of the result is written by
  point o / 256, as its entry (row, o mod 256), and holds the layer's entry for batch member row / 128, position
  row mod 128, channel o, with the scale applied after the contraction. The 43 column blocks cover the array.
-/
import proofs.«166125_j28484223107806_2_alg».proof.Proof.KernelBlock
import proofs.«166125_j28484223107806_2_alg».proof.Proof.KernelArrays

noncomputable section

namespace Cert.QuantLinear.KernelFinal

open Idealize.ShloMosaic Idealize.ShloMosaic.TcCoe Idealize.ShloMosaic.ValueIdx Idealize.SL.Sem
open Idealize.ShloMosaic.Pipeline (Dat)
open Cert.KernelIdeal Cert.KernelIdeal.Gen Cert.QuantLinear.KernelBlock Cert.QuantLinear.KernelArrays

variable (m : (ℓ : Loc nD τ sig) → Buf (Elt Ideal) ℓ)

/-- The zero point both programs spell: the f32 pattern of 128. -/
abbrev zeroPoint : EReal := Ideal.ofBits .f32 0x43000000#32

/-- Entry (row, o) of the flat result: row 128·p + r stands for position r of batch member p. -/
def flatEntry (x : (⟨3, ![4, 128, 4096]⟩ : Shape).Idx → EReal) (q : (⟨2, ![11008, 4096]⟩ : Shape).Idx → BitVec 32)
    (s : (⟨2, ![11008, 1]⟩ : Shape).Idx → EReal) (b : (⟨1, ![11008]⟩ : Shape).Idx → EReal) (row : Fin 512) (o : Fin 11008) : EReal :=
  entryScaledAfter zeroPoint x q s b ⟨row.val / 128, by omega⟩ ⟨row.val % 128, by omega⟩ o

/-- The flat [512, 11008] result as one function of the four arguments. -/
def flat (x : (⟨3, ![4, 128, 4096]⟩ : Shape).Idx → EReal) (q : (⟨2, ![11008, 4096]⟩ : Shape).Idx → BitVec 32)
    (s : (⟨2, ![11008, 1]⟩ : Shape).Idx → EReal) (b : (⟨1, ![11008]⟩ : Shape).Idx → EReal) : (⟨2, ![512, 11008]⟩ : Shape).Idx → EReal :=
  fun i => flatEntry x q s b (i 0) (i 1)

/-- The flat result of the program's own arguments on core `c`. -/
abbrev flatOf (c : Dev nD) : S512x11008.Idx → EReal :=
  flat (m ((c : Thread nD τ).loc main_arg0)) (m ((c : Thread nD τ).loc main_arg1)) (m ((c : Thread nD τ).loc main_arg2)) (m ((c : Thread nD τ).loc main_arg3))

theorem hz : (![0, 0] : Fin 2 → Nat) = fun _ => 0 := funext fun a => by fin_cases a <;> rfl

/-- Where each window's block sits at grid point t: the input whole, the others at row or column block t. -/
theorem block_index : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-- The input block at any point is the whole flattened input. -/
theorem xblk_apply (c : Dev nD) (t : Fin cfg0.N) (row : Fin 512) (k : Fin 4096) :
    (iblk m c 0 t : Vec Ideal S512x4096 .bf16) (ix2 row k) = (V m c main_v1 : S512x4096.Idx → EReal) (ix2 row k) := by
  obtain ⟨e0, e1, -⟩ := block_index t
  unfold iblk
  rw [View.read_apply]
  show V m c main_v1 _ = V m c main_v1 _
  refine congrArg _ (funext fun a => Fin.ext ?_)
  match a with
  | ⟨0, _⟩ => show win0_0.index t (0 : Fin 2) * 512 + 1 * row.val = row.val; rw [e0]; omega
  | ⟨1, _⟩ => show win0_0.index t (1 : Fin 2) * 4096 + 1 * k.val = k.val; rw [e1]; omega

/-- Row n of the code block at point t is row 256·t + n of the code array. -/
theorem qblk_apply (c : Dev nD) (t : Fin cfg0.N) (n : Fin 256) (k : Fin 4096) (o : Fin 11008) (ho : o.val = t.val * 256 + n.val) :
    (iblk m c 1 t : Vec Ideal S256x4096 .i32) (ix2 n k) = (m ((c : Thread nD τ).loc main_arg1) : S11008x4096.Idx → BitVec 32) (ix2 o k) := by
  obtain ⟨-, -, e0, e1, -⟩ := block_index t
  unfold iblk
  rw [View.read_apply]
  show V m c main_arg1 _ = _
  rw [V_main_arg1]
  refine congrArg _ (funext fun a => Fin.ext ?_)
  match a with
  | ⟨0, _⟩ => show win0_1.index t (0 : Fin 2) * 256 + 1 * n.val = o.val; rw [e0, ho]; omega
  | ⟨1, _⟩ => show win0_1.index t (1 : Fin 2) * 4096 + 1 * k.val = k.val; rw [e1]; omega

/-- Entry n of the scale block at point t is entry 256·t + n of the scale row. -/
theorem sblk_apply (c : Dev nD) (t : Fin cfg0.N) (n : Fin 256) (o : Fin 11008) (ho : o.val = t.val * 256 + n.val) :
    (iblk m c 2 t : Vec Ideal S1x256 .f32) (ix2 (0 : Fin 1) n) = (V m c main_v2 : S1x11008.Idx → EReal) (ix2 (0 : Fin 1) o) := by
  obtain ⟨-, -, -, -, e0, e1, -⟩ := block_index t
  unfold iblk
  rw [View.read_apply]
  show V m c main_v2 _ = V m c main_v2 _
  refine congrArg _ (funext fun a => Fin.ext ?_)
  match a with
  | ⟨0, _⟩ => show win0_2.index t (0 : Fin 2) * 1 + 1 * 0 = 0; rw [e0]
  | ⟨1, _⟩ => show win0_2.index t (1 : Fin 2) * 256 + 1 * n.val = o.val; rw [e1, ho]; omega

/-- Entry n of the bias block at point t is entry 256·t + n of the bias row. -/
theorem bblk_apply (c : Dev nD) (t : Fin cfg0.N) (n : Fin 256) (o : Fin 11008) (ho : o.val = t.val * 256 + n.val) :
    (iblk m c 3 t : Vec Ideal S1x256 .f32) (ix2 (0 : Fin 1) n) = (V m c main_v3 : S1x11008.Idx → EReal) (ix2 (0 : Fin 1) o) := by
  obtain ⟨-, -, -, -, -, -, e0, e1, -⟩ := block_index t
  unfold iblk
  rw [View.read_apply]
  show V m c main_v3 _ = V m c main_v3 _
  refine congrArg _ (funext fun a => Fin.ext ?_)
  match a with
  | ⟨0, _⟩ => show win0_3.index t (0 : Fin 2) * 1 + 1 * 0 = 0; rw [e0]
  | ⟨1, _⟩ => show win0_3.index t (1 : Fin 2) * 256 + 1 * n.val = o.val; rw [e1, ho]; omega

/-- What point t computes at entry (row, n) is the flat result's entry (row, 256·t + n). -/
theorem point_entry (c : Dev nD) (t : Fin cfg0.N) (row : Fin 512) (n : Fin 256) (o : Fin 11008) (ho : o.val = t.val * 256 + n.val) :
    k0_pay1 (F := Ideal) (iblk m c 0 t) (iblk m c 1 t) (iblk m c 2 t) (iblk m c 3 t) (ix2 row n)
      = flatEntry (m ((c : Thread nD τ).loc main_arg0)) (m ((c : Thread nD τ).loc main_arg1)) (m ((c : Thread nD τ).loc main_arg2)) (m ((c : Thread nD τ).loc main_arg3)) row o := by
  refine (pay_entry (iblk m c 0 t) (iblk m c 1 t) (iblk m c 2 t) (iblk m c 3 t) row n).trans ?_
  rw [sblk_apply m c t n o ho, bblk_apply m c t n o ho, s_apply, b_apply]
  unfold flatEntry entryScaledAfter
  refine congrArg (fun u => u * _ + _) (Finset.sum_congr rfl fun k _ => ?_)
  rw [xblk_apply, qblk_apply m c t n k o ho, x_apply m c row ⟨row.val / 128, by omega⟩ ⟨row.val % 128, by omega⟩ k (by show row.val = row.val / 128 * 128 + row.val % 128; omega)]

/-- WHAT POINT t WRITES BACK is its block of the flat result. -/
theorem flushed_eq (c : Dev nD) (t : Fin cfg0.N) :
    (dats m 0 c).flushed 4 t = ((cfg0.win 4).blk t).view.read (Elt Ideal) (flatOf m c) := by
  show (cfg0.win 4).cut (grid0.coords t) ((dats m 0 c).after 4 t) = _
  rw [after0_4]
  unfold out0_4
  rw [View.canon_unit_zero hz]
  simp only [View.ld_unit_zero (S := S512x4096) hz, View.ld_unit_zero (S := S256x4096) hz, View.ld_unit_zero (S := S1x256) hz]
  obtain ⟨-, -, -, -, -, -, -, -, e0, e1⟩ := block_index t
  have hN : t.val < 43 := lt_of_lt_of_eq t.isLt N_0
  funext j
  obtain ⟨row, n, rfl⟩ : ∃ (row : Fin 512) (n : Fin 256), j = ix2 row n := ⟨j 0, j 1, eq_ix2 j⟩
  have hemb : ((cfg0.win 4).blk t).view.emb (ix2 row n) = ix2 row (⟨t.val * 256 + n.val, by omega⟩ : Fin 11008) := by
    funext a; apply Fin.ext
    match a with
    | ⟨0, _⟩ => show win0_4.index t (0 : Fin 2) * 512 + 1 * row.val = row.val; rw [e0]; omega
    | ⟨1, _⟩ => show win0_4.index t (1 : Fin 2) * 256 + 1 * n.val = t.val * 256 + n.val; rw [e1]; omega
  show k0_pay1 (F := Ideal) (iblk m c 0 t) (iblk m c 1 t) (iblk m c 2 t) (iblk m c 3 t) (ix2 row n) = flatOf m c (((cfg0.win 4).blk t).view.emb (ix2 row n))
  rw [hemb]
  exact point_entry m c t row n _ rfl

/-- An index of the array is in point t's block iff each coordinate is in the block's range on its axis. -/
theorem mem_blk (t : Fin cfg0.N) (i : S512x11008.Idx) :
    i ∈ ((cfg0.win 4).blk t).view.set ↔ ∀ a : Fin 2, win0_4.index t a * S512x256.size a ≤ (i a).val ∧ (i a).val < win0_4.index t a * S512x256.size a + S512x256.size a := by
  show i ∈ ((View.whole main_v4).slice (win0_4.rect t)).set ↔ _
  rw [View.set_slice_whole, Rect.mem_set_unit]
  exact Iff.rfl

/-- Column o of the result is written by point o / 256: the 43 column blocks cover the array. -/
theorem cover (i : S512x11008.Idx) : ∃ t : Fin cfg0.N, (cfg0.win 4).flush t = true ∧ i ∈ ((cfg0.win 4).blk t).view.set := by
  have h0 : (i 0).val < 512 := (i 0).isLt
  have h1 : (i 1).val < 11008 := (i 1).isLt
  have hN : cfg0.N = 43 := N_0
  refine ⟨⟨(i 1).val / 256, by rw [hN]; omega⟩, flush0_4 _, ?_⟩
  rw [mem_blk]
  obtain ⟨-, -, -, -, -, -, -, -, e0, e1⟩ := block_index ⟨(i 1).val / 256, by rw [hN]; omega⟩
  intro a
  match a with
  | ⟨0, _⟩ => show win0_4.index _ (0 : Fin 2) * 512 ≤ (i 0).val ∧ (i 0).val < win0_4.index _ (0 : Fin 2) * 512 + 512; rw [e0]; omega
  | ⟨1, _⟩ => show win0_4.index _ (1 : Fin 2) * 256 ≤ (i 1).val ∧ (i 1).val < win0_4.index _ (1 : Fin 2) * 256 + 256; rw [e1]; show (i 1).val / 256 * 256 ≤ (i 1).val ∧ (i 1).val < (i 1).val / 256 * 256 + 256; omega

/-- THE ARRAY the call returns is the flat result. -/
theorem final (c : Dev nD) : (dats m 0 c).arrAt 4 cfg0.N = flatOf m c :=
  (dats m 0 c).arrAt_eq_of_cover 4 (flatOf m c) (fun t _ => flushed_eq m c t) (cover)

end Cert.QuantLinear.KernelFinal

end
-- ==== Proof.KernelRun.lean ====
/-
  The kernel program's result.

  After the call the program splits the 512 rows of the flat [512, 11008] result back into 4 batch members of 128
  positions. Entry (p, r, o) of the result is entry (128·p + r, o) of the flat array, which is the layer's entry for
  batch member p, position r, channel o, with the scale applied after the contraction. The program's arguments end as
  they began.
-/
import proofs.«166125_j28484223107806_2_alg».proof.Proof.KernelFinal

noncomputable section

namespace Cert.QuantLinear.KernelRun

open Idealize.ShloMosaic Idealize.ShloMosaic.TcCoe Idealize.ShloMosaic.ValueIdx Idealize.SL.Sem
open Idealize.ShloMosaic.Pipeline (Dat)
open Cert.KernelIdeal Cert.KernelIdeal.Gen Cert.QuantLinear.KernelFinal

variable (m : (ℓ : Loc nD τ sig) → Buf (Elt Ideal) ℓ) (ρ : Dev nD → PrngReg)

/-- The layer of the program's own arguments on core `c`, scale applied after the contraction. -/
abbrev resultOf (c : Dev nD) : S4x128x11008.Idx → EReal :=
  linScaledAfter zeroPoint (m ((c : Thread nD τ).loc main_arg0)) (m ((c : Thread nD τ).loc main_arg1)) (m ((c : Thread nD τ).loc main_arg2)) (m ((c : Thread nD τ).loc main_arg3))

/-- What the reshape after the call leaves in the result buffer. -/
theorem tail_eq (c : Dev nD) :
    Pipeline.afterTail₀ cfgs (dats m) 0 (V0 m) [hostOps1] c main_v5 = resultOf m c := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4) = flatOf m c :=
    (Pipeline.withArrays_arr spec0 launch0.win.arr_inj c _ _ 4).trans (final m c)
  rw [e]
  funext i
  obtain ⟨p, r, o, rfl⟩ : ∃ (p : Fin 4) (r : Fin 128) (o : Fin 11008), i = ix3 p r o := ⟨i 0, i 1, i 2, eq_ix3 i⟩
  show shapeCast S4x128x11008 (flatOf m c) shapeCasts_S512x11008_S4x128x11008 (ix3 p r o) = _
  refine (Cert.LibLayout.shapeCast_mc_abc_apply (flatOf m c) shapeCasts_S512x11008_S4x128x11008
    (⟨p.val * 128 + r.val, by omega⟩ : Fin 512) p r o rfl).trans ?_
  show flatEntry _ _ _ _ (⟨p.val * 128 + r.val, by omega⟩ : Fin 512) o = entryScaledAfter zeroPoint _ _ _ _ p r o
  unfold flatEntry
  have hp : (⟨(p.val * 128 + r.val) / 128, by omega⟩ : Fin 4) = p := Fin.ext (by show (p.val * 128 + r.val) / 128 = p.val; omega)
  have hr : (⟨(p.val * 128 + r.val) % 128, by omega⟩ : Fin 128) = r := Fin.ext (by show (p.val * 128 + r.val) % 128 = r.val; omega)
  rw [hp, hr]

/-- THE RUN, READ: every weakly fair execution of the kernel program ends with the result buffer at the layer of the
    arguments and the arguments as they began. -/
theorem run : θ_run defs (onTc (τ := τ) (main (F := Ideal))) ⟨m, fun _ => 0, ρ⟩ (fun r => ∀ c : Dev nD,
      r.2.mem ((c.tc : Thread nD τ).loc main_v5) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.QuantLinear.KernelRun

end
-- ==== Proof.lean ====
/-
  A quantized linear layer computed two ways, equal on the extended reals.

  Both programs compute, for batch member p, position r and output channel o,
      ∑ₖ x(p,r,k) · scale(o) · (q(o,k) − 128)  +  bias(o).
  The kernel works on the input flattened to 512 rows and on 43 blocks of 256 output channels: at each block it
  contracts the rows of x against the unscaled codes q − 128 and then multiplies column o of the product by scale(o)
  and adds bias(o); afterwards the 512 rows are split back into 4 × 128. The reference scales every weight first,
  scale(o) · (q(o,k) − 128), contracts x against the scaled weights, and adds the bias.

  The two differ only in where the factor scale(o) stands relative to the sum over k. Moving a common factor across a
  finite sum is distributivity, which holds between finite values but not at the infinities of the extended reals; the
  precondition — every entry of x, scale and bias is finite — supplies exactly that, and the integer codes and the zero
  point 128 are finite by themselves. No operation was rewritten on the way from the kernel to its idealized text, so
  there is nothing to preserve; and each program runs to completion with its arguments unchanged.
-/
import proofs.«166125_j28484223107806_2_alg».proof.Defs
import proofs.«166125_j28484223107806_2_alg».proof.Proof.Gen.Kernel
import proofs.«166125_j28484223107806_2_alg».proof.Proof.Gen.Kernel.Frame
import proofs.«166125_j28484223107806_2_alg».proof.Proof.Gen.KernelIdeal
import proofs.«166125_j28484223107806_2_alg».proof.Proof.Gen.KernelIdeal.Frame
import proofs.«166125_j28484223107806_2_alg».proof.Proof.Gen.ReferenceIdeal
import proofs.«166125_j28484223107806_2_alg».proof.Proof.Gen.ReferenceIdeal.Run
import proofs.«166125_j28484223107806_2_alg».proof.Proof.Gen.ReferenceIdeal.Read
import proofs.«166125_j28484223107806_2_alg».proof.Proof.Gen.Pre_finite_inputs
import proofs.«166125_j28484223107806_2_alg».proof.Proof.Spec
import proofs.«166125_j28484223107806_2_alg».proof.Proof.ZeroPoint
import proofs.«166125_j28484223107806_2_alg».proof.Proof.Finite
import proofs.«166125_j28484223107806_2_alg».proof.Proof.RefSide
import proofs.«166125_j28484223107806_2_alg».proof.Proof.KernelRun

noncomputable section

namespace Cert.Proof

open Idealize.ShloMosaic Idealize.ShloMosaic.TcCoe Idealize.SL.Sem

/-- The kernel as printed runs to completion and leaves its arguments as they were. -/
theorem frame_kernel : Cert.frame_Kernel := fun m ρ _ => Cert.Kernel.Gen.frame m ρ

/-- So does its idealized text. -/
theorem frame_kernelIdeal : Cert.frame_KernelIdeal := fun m ρ _ => Cert.KernelIdeal.Gen.frame m ρ

/-- The reference has no kernel: its run, with the result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten, so nothing is asked. -/
theorem preserves : Cert.preserves_Kernel_KernelIdeal := trivial

/-- From memories agreeing on the four arguments, both programs end with the same result: the kernel's is the layer
    with the scale applied after the contraction, the reference's the layer with every weight scaled before it, and
    between finite inputs the two are one function. -/
theorem algebraic : Cert.algebraic_KernelIdeal_ReferenceIdeal := by
  intro m ρ m' ρ' hpre hagree
  refine ⟨fun c => Cert.QuantLinear.KernelRun.resultOf m c, Cert.QuantLinear.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.QuantLinear.RefSide.ref_eq,
    (hagree c).1, (hagree c).2.1, (hagree c).2.2.1, (hagree c).2.2.2]
  obtain ⟨hx, hs, -⟩ := Cert.QuantLinear.finite_of_pre _ _ _ _ (hpre c)
  exact (Cert.QuantLinear.linScaledAfter_eq_linScaledBefore _ _ _ _ _ Cert.QuantLinear.zeroPoint_real hx hs).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
